-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S128x1024 : Shape := ⟨2, ![128, 1024]⟩
abbrev S100000x512 : Shape := ⟨2, ![100000, 512]⟩
abbrev S500x512 : Shape := ⟨2, ![500, 512]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S500x512 : S_.BroadcastsInDim S500x512 (![] : Fin 0 → Fin S500x512.rank)
  reducesTo_S500x512_S_d0_1 : S500x512.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg7 : FVec F S100000 .f32) (main_arg8 : FVec F S100000 .f32) (main_v13 : IVec S_ 1) (main_v16 : IVec S500x512 1) : IVec S_ 1 :=
  let main_c_5 : IVec S_ 1 := constantI S_ 1 1#1
  let main_v17 : IVec S_ 1 := (fun x v => Host.reduce IntOp.andi x v reducesTo_S500x512_S_d0_1 h_S_) main_v16 main_c_5
  let main_v18 : IVec S_ 1 := andi main_v13 main_v17
  let main_v19 : FVec F S100000 .f32 := Host.absf main_arg7
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg8
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  main_v28

def fn {F : FTy → Type} [FloatOps F] (main_arg0 : IVec S128 32) (main_arg1 : IVec S128 32) (main_arg2 : IVec S128x1024 32) (main_arg3 : FVec F S100000x512 .f32) (main_arg4 : FVec F S500x512 .f32) (main_arg5 : FVec F S500x512 .f32) (main_arg6 : FVec F S500x512 .f32) (main_arg7 : FVec F S100000 .f32) (main_arg8 : FVec F S100000 .f32) : IVec S_ 1 :=
  let main_v0 : FVec F S100000x512 .f32 := Host.absf main_arg3
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S500x512 .f32 := Host.absf main_arg4
  let main_cst_0 : FVec F S_ .f32 := constant S_ .f32 0x7F800000#32
  let main_v5 : FVec F S500x512 .f32 := broadcastInDim S500x512 ![] bcast_S_S500x512 main_cst_0
  let main_v6 : IVec S500x512 1 := cmpf .olt main_v4 main_v5
  let main_c_1 : IVec S_ 1 := constantI S_ 1 1#1
  let main_v7 : IVec S_ 1 := (fun x v => Host.reduce IntOp.andi x v reducesTo_S500x512_S_d0_1 h_S_) main_v6 main_c_1
  let main_v8 : IVec S_ 1 := andi main_v3 main_v7
  let main_v9 : FVec F S500x512 .f32 := Host.absf main_arg5
  let main_cst_2 : FVec F S_ .f32 := constant S_ .f32 0x7F800000#32
  let main_v10 : FVec F S500x512 .f32 := broadcastInDim S500x512 ![] bcast_S_S500x512 main_cst_2
  let main_v11 : IVec S500x512 1 := cmpf .olt main_v9 main_v10
  let main_c_3 : IVec S_ 1 := constantI S_ 1 1#1
  let main_v12 : IVec S_ 1 := (fun x v => Host.reduce IntOp.andi x v reducesTo_S500x512_S_d0_1 h_S_) main_v11 main_c_3
  let main_v13 : IVec S_ 1 := andi main_v8 main_v12
  let main_v14 : FVec F S500x512 .f32 := Host.absf main_arg6
  let main_cst_4 : FVec F S_ .f32 := constant S_ .f32 0x7F800000#32
  let main_v15 : FVec F S500x512 .f32 := broadcastInDim S500x512 ![] bcast_S_S500x512 main_cst_4
  let main_v16 : IVec S500x512 1 := cmpf .olt main_v14 main_v15
  fn_part1 (F := F) main_arg7 main_arg8 main_v13 main_v16
-- ==== Kernel.lean ====
abbrev S128 : Shape := ⟨1, ![128]⟩
abbrev S128x1024 : Shape := ⟨2, ![128, 1024]⟩
abbrev S100000x512 : Shape := ⟨2, ![100000, 512]⟩
abbrev S500x512 : Shape := ⟨2, ![500, 512]⟩
abbrev S100000 : Shape := ⟨1, ![100000]⟩
abbrev S_ : Shape := ⟨0, ![]⟩
abbrev S128x1 : Shape := ⟨2, ![128, 1]⟩
abbrev S128x512 : Shape := ⟨2, ![128, 512]⟩
abbrev S128x1024x1 : Shape := ⟨3, ![128, 1024, 1]⟩
abbrev S128x256x2 : Shape := ⟨3, ![128, 256, 2]⟩
abbrev S128x256 : Shape := ⟨2, ![128, 256]⟩
abbrev S128x256x1 : Shape := ⟨3, ![128, 256, 1]⟩
abbrev S128x1024x512 : Shape := ⟨3, ![128, 1024, 512]⟩
abbrev S128x1x512 : Shape := ⟨3, ![128, 1, 512]⟩
abbrev S32x1x512 : Shape := ⟨3, ![32, 1, 512]⟩
abbrev S32x1 : Shape := ⟨2, ![32, 1]⟩
abbrev S32x128x512 : Shape := ⟨3, ![32, 128, 512]⟩
abbrev S32x128 : Shape := ⟨2, ![32, 128]⟩

abbrev nBuf : Space → Nat
  | .hbm => 135
  | .vmem => 10
  | .smem => 0
  | _ => 0

abbrev hbmTy0_0 (i : Nat) : BufTy := match i % 128 with
  | 0 => ⟨S128, .i32⟩
  | 1 => ⟨S128, .i32⟩
  | 2 => ⟨S128x1024, .i32⟩
  | 3 => ⟨S100000x512, .f32⟩
  | 4 => ⟨S500x512, .f32⟩
  | 5 => ⟨S500x512, .f32⟩
  | 6 => ⟨S500x512, .f32⟩
  | 7 => ⟨S100000, .f32⟩
  | 8 => ⟨S100000, .f32⟩
  | 9 => ⟨S_, .i32⟩
  | 10 => ⟨S128, .i32⟩
  | 11 => ⟨S128, .i1⟩
  | 12 => ⟨S_, .i32⟩
  | 13 => ⟨S128, .i32⟩
  | 14 => ⟨S128, .i32⟩
  | 15 => ⟨S128, .i32⟩
  | 16 => ⟨S128x1, .i32⟩
  | 17 => ⟨S128x512, .f32⟩
  | 18 => ⟨S_, .i32⟩
  | 19 => ⟨S128, .i32⟩
  | 20 => ⟨S128, .i1⟩
  | 21 => ⟨S_, .i32⟩
  | 22 => ⟨S128, .i32⟩
  | 23 => ⟨S128, .i32⟩
  | 24 => ⟨S128, .i32⟩
  | 25 => ⟨S128x1, .i32⟩
  | 26 => ⟨S128x512, .f32⟩
  | 27 => ⟨S_, .i32⟩
  | 28 => ⟨S128, .i32⟩
  | 29 => ⟨S128, .i1⟩
  | 30 => ⟨S_, .i32⟩
  | 31 => ⟨S128, .i32⟩
  | 32 => ⟨S128, .i32⟩
  | 33 => ⟨S128, .i32⟩
  | 34 => ⟨S128x1, .i32⟩
  | 35 => ⟨S128x512, .f32⟩
  | 36 => ⟨S_, .i32⟩
  | 37 => ⟨S128, .i32⟩
  | 38 => ⟨S128, .i1⟩
  | 39 => ⟨S_, .i32⟩
  | 40 => ⟨S128, .i32⟩
  | 41 => ⟨S128, .i32⟩
  | 42 => ⟨S128, .i32⟩
  | 43 => ⟨S128x1, .i32⟩
  | 44 => ⟨S128x512, .f32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S128x1, .i32⟩
  | 53 => ⟨S128, .f32⟩
  | 54 => ⟨S_, .i32⟩
  | 55 => ⟨S128x1024, .i32⟩
  | 56 => ⟨S128x1024, .i1⟩
  | 57 => ⟨S_, .i32⟩
  | 58 => ⟨S128x1024, .i32⟩
  | 59 => ⟨S128x1024, .i32⟩
  | 60 => ⟨S128x1024, .i32⟩
  | 61 => ⟨S128x1024x1, .i32⟩
  | 62 => ⟨S128x1024, .f32⟩
  | 63 => ⟨S128x512, .f32⟩
  | 64 => ⟨S_, .f32⟩
  | 65 => ⟨S128, .f32⟩
  | 66 => ⟨S128x1, .f32⟩
  | 67 => ⟨S128x1, .f32⟩
  | 68 => ⟨S_, .f32⟩
  | 69 => ⟨S128x1, .f32⟩
  | 70 => ⟨S128x1, .f32⟩
  | 71 => ⟨S_, .f32⟩
  | 72 => ⟨S128x1, .f32⟩
  | 73 => ⟨S128x1, .f32⟩
  | 74 => ⟨S128x1, .f32⟩
  | 75 => ⟨S128x512, .f32⟩
  | 76 => ⟨S128x512, .f32⟩
  | 77 => ⟨S_, .f32⟩
  | 78 => ⟨S128x1, .f32⟩
  | 79 => ⟨S128x1, .f32⟩
  | 80 => ⟨S128x512, .f32⟩
  | 81 => ⟨S128x512, .f32⟩
  | 82 => ⟨S128x512, .f32⟩
  | 83 => ⟨S128x256x2, .f32⟩
  | 84 => ⟨S128x256x2, .f32⟩
  | 85 => ⟨S_, .f32⟩
  | 86 => ⟨S128x256, .f32⟩
  | 87 => ⟨S128x256x1, .f32⟩
  | 88 => ⟨S128x256x1, .f32⟩
  | 89 => ⟨S_, .f32⟩
  | 90 => ⟨S128x256x1, .f32⟩
  | 91 => ⟨S128x256x1, .f32⟩
  | 92 => ⟨S128x256x2, .f32⟩
  | 93 => ⟨S128x256x2, .f32⟩
  | 94 => ⟨S128x256x2, .f32⟩
  | 95 => ⟨S128x256x1, .f32⟩
  | 96 => ⟨S128x256, .f32⟩
  | 97 => ⟨S128x256x1, .f32⟩
  | 98 => ⟨S128x256, .f32⟩
  | 99 => ⟨S128x256, .f32⟩
  | 100 => ⟨S128x256x1, .f32⟩
  | 101 => ⟨S128x256, .f32⟩
  | 102 => ⟨S128x256x1, .f32⟩
  | 103 => ⟨S128x256, .f32⟩
  | 104 => ⟨S128x256, .f32⟩
  | 105 => ⟨S128x256, .f32⟩
  | 106 => ⟨S128x256x1, .f32⟩
  | 107 => ⟨S128x256, .f32⟩
  | 108 => ⟨S128x256x1, .f32⟩
  | 109 => ⟨S128x256, .f32⟩
  | 110 => ⟨S128x256, .f32⟩
  | 111 => ⟨S128x256x1, .f32⟩
  | 112 => ⟨S128x256, .f32⟩
  | 113 => ⟨S128x256x1, .f32⟩
  | 114 => ⟨S128x256, .f32⟩
  | 115 => ⟨S128x256, .f32⟩
  | 116 => ⟨S128x256, .f32⟩
  | 117 => ⟨S128x256x1, .f32⟩
  | 118 => ⟨S128x256x1, .f32⟩
  | 119 => ⟨S128x256x2, .f32⟩
  | 120 => ⟨S128x512, .f32⟩
  | 121 => ⟨S128x512, .f32⟩
  | 122 => ⟨S128x512, .f32⟩
  | 123 => ⟨S_, .i32⟩
  | 124 => ⟨S128x1024, .i32⟩
  | 125 => ⟨S128x1024, .i1⟩
  | 126 => ⟨S_, .i32⟩
  | 127 => ⟨S128x1024, .i32⟩
  | _ => ⟨S128, .i32⟩

abbrev hbmTy0_1 (i : Nat) : BufTy := match i % 128 with
  | 0 => ⟨S128x1024, .i32⟩
  | 1 => ⟨S128x1024, .i32⟩
  | 2 => ⟨S128x1024x1, .i32⟩
  | 3 => ⟨S128x1024x512, .f32⟩
  | 4 => ⟨S128x1x512, .f32⟩
  | 5 => ⟨S128x1, .f32⟩
  | 6 => ⟨S128x1024, .f32⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | .local _ .vmem, ⟨0, _⟩ => ⟨S32x1x512, .f32⟩
  | .local _ .vmem, ⟨1, _⟩ => ⟨S32x1x512, .f32⟩
  | .local _ .vmem, ⟨2, _⟩ => ⟨S32x1, .f32⟩
  | .local _ .vmem, ⟨3, _⟩ => ⟨S32x1, .f32⟩
  | .local _ .vmem, ⟨4, _⟩ => ⟨S32x128x512, .f32⟩
  | .local _ .vmem, ⟨5, _⟩ => ⟨S32x128x512, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call0_v0 : Ref sig .tc := ⟨.hbm, 63, rfl⟩
abbrev main_call0_cst : Ref sig .tc := ⟨.hbm, 64, rfl⟩
abbrev main_call0_v1 : Ref sig .tc := ⟨.hbm, 65, rfl⟩
abbrev main_call0_v2 : Ref sig .tc := ⟨.hbm, 66, rfl⟩
abbrev main_v42 : Ref sig .tc := ⟨.hbm, 67, rfl⟩
abbrev main_cst : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_v0 : Ref sig .tc := ⟨.hbm, 84, rfl⟩
abbrev main_call1_cst : Ref sig .tc := ⟨.hbm, 85, rfl⟩
abbrev main_call1_v1 : Ref sig .tc := ⟨.hbm, 86, rfl⟩
abbrev main_call1_v2 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_14 : Ref sig .tc := ⟨.hbm, 123, rfl⟩
abbrev main_v90 : Ref sig .tc := ⟨.hbm, 124, rfl⟩
abbrev main_v91 : Ref sig .tc := ⟨.hbm, 125, rfl⟩
abbrev main_c_15 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  reducesTo_S128x512_S128_d1 : S128x512.ReducesTo [1] S128
  h_S_ : 0 < S_.numel
  bcast_S_S128x1 : S_.BroadcastsInDim S128x1 (![] : Fin 0 → Fin S128x1.rank)
  bcast_S128x1_S128x512_0_1 : S128x1.BroadcastsInDim S128x512 (![0, 1] : Fin 2 → Fin S128x512.rank)
  shapeCasts_S128x512_S128x256x2 : S128x512.ShapeCasts S128x256x2
  reducesTo_S128x256x2_S128x256_d2 : S128x256x2.ReducesTo [2] S128x256
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x2_0_1_2 : S128x256x1.BroadcastsInDim S128x256x2 (![0, 1, 2] : Fin 3 → Fin S128x256x2.rank)
  slices_S128x256x2_S128x256x1_0_0_0 : S128x256x2.Slices ![0, 0, 0] S128x256x1
  shapeCasts_S128x256x1_S128x256 : S128x256x1.ShapeCasts S128x256
  slices_S128x256x2_S128x256x1_0_0_1 : S128x256x2.Slices ![0, 0, 1] S128x256x1
  concatenates_S128x256x1_S128x256x1_S128x256x2_d2 : Shape.Concatenates [S128x256x1, S128x256x1] S128x256x2 2
  shapeCasts_S128x256x2_S128x512 : S128x256x2.ShapeCasts S128x512
  shapeCasts_S128x512_S128x1x512 : S128x512.ShapeCasts S128x1x512
  shapeCasts_S128_S128x1 : S128.ShapeCasts S128x1
  inb_S32x1x512_S32x1x512_0_0_0 : ∀ a, (![0, 0, 0] : Fin 3 → Nat) a + S32x1x512.size a ≤ S32x1x512.size a
  h_S32x1x512 : 0 < S32x1x512.numel
  shapeCasts_S32x1x512_S32x1x512 : S32x1x512.ShapeCasts S32x1x512
  inb_S32x128x512_S32x128x512_0_0_0 : ∀ a, (![0, 0, 0] : Fin 3 → Nat) a + S32x128x512.size a ≤ S32x128x512.size a
  h_S32x128x512 : 0 < S32x128x512.numel
  shapeCasts_S32x128x512_S32x128x512 : S32x128x512.ShapeCasts S32x128x512
  broadcasts_S32x1x512_S32x128x512 : S32x1x512.Broadcasts S32x128x512
  reduces_S32x128x512_S32x128 : S32x128x512.Reduces [2] S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  gather_S100000x512_S128x1_S128x512_1_0_n_n_0_1_1512_wf : GatherDims.WF S100000x512 S128x1 S128x512 [1] [0] [] [0] [] 1 ![1, 512]
  gather_S500x512_S128x1_S128x512_1_0_n_n_0_1_1512_wf : GatherDims.WF S500x512 S128x1 S128x512 [1] [0] [] [0] [] 1 ![1, 512]
  gather_S100000_S128x1_S128_n_0_n_n_0_1_1_wf : GatherDims.WF S100000 S128x1 S128 [] [0] [] [0] [] 1 ![1]
  gather_S100000_S128x1024x1_S128x1024_n_0_n_n_0_2_1_wf : GatherDims.WF S100000 S128x1024x1 S128x1024 [] [0] [] [0] [] 2 ![1]
  gather_S100000x512_S128x1024x1_S128x1024x512_2_0_n_n_0_2_1512_wf : GatherDims.WF S100000x512 S128x1024x1 S128x1024x512 [2] [0] [] [0] [] 2 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x512.size a ≤ S128x1x512.size a
  hwx0_0 : ∀ i : grid0.Coords, EltTy.bits .f32 = 32 ∨ (Rect.block (s := S128x1x512) S32x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S128x1.size a
  hwx0_1 : ∀ i : grid0.Coords, EltTy.bits .f32 = 32 ∨ (Rect.block (s := S128x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x512.size a ≤ S128x1024x512.size a
  hwx0_2 : ∀ i : grid0.Coords, EltTy.bits .f32 = 32 ∨ (Rect.block (s := S128x1024x512) S32x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S128x1024.size a
  hwx0_3 : ∀ i : grid0.Coords, EltTy.bits .f32 = 32 ∨ (Rect.block (s := S128x1024) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S128x1024.size a
  hwx0_4 : ∀ i : grid0.Coords, EltTy.bits .f32 = 32 ∨ (Rect.block (s := S128x1024) S32x128.size (cc0_transform_4 i) (hinb0_4 i)).WholeWords (EltTy.packing .f32)

variable [Facts₀]

def gather_S100000x512_S128x1_S128x512_1_0_n_n_0_1_1512 : GatherDims S100000x512 S128x1 S128x512 where
  offsetDims := [1]
  collapsedSliceDims := [0]
  operandBatchingDims := []
  startIndicesBatchingDims := []
  startIndexMap := [0]
  indexVectorDim := 1
  sliceSizes := ![1, 512]
  wf := gather_S100000x512_S128x1_S128x512_1_0_n_n_0_1_1512_wf
def gather_S500x512_S128x1_S128x512_1_0_n_n_0_1_1512 : GatherDims S500x512 S128x1 S128x512 where
  offsetDims := [1]
  collapsedSliceDims := [0]
  operandBatchingDims := []
  startIndicesBatchingDims := []
  startIndexMap := [0]
  indexVectorDim := 1
  sliceSizes := ![1, 512]
  wf := gather_S500x512_S128x1_S128x512_1_0_n_n_0_1_1512_wf
def gather_S100000_S128x1_S128_n_0_n_n_0_1_1 : GatherDims S100000 S128x1 S128 where
  offsetDims := []
  collapsedSliceDims := [0]
  operandBatchingDims := []
  startIndicesBatchingDims := []
  startIndexMap := [0]
  indexVectorDim := 1
  sliceSizes := ![1]
  wf := gather_S100000_S128x1_S128_n_0_n_n_0_1_1_wf
def gather_S100000_S128x1024x1_S128x1024_n_0_n_n_0_2_1 : GatherDims S100000 S128x1024x1 S128x1024 where
  offsetDims := []
  collapsedSliceDims := [0]
  operandBatchingDims := []
  startIndicesBatchingDims := []
  startIndexMap := [0]
  indexVectorDim := 2
  sliceSizes := ![1]
  wf := gather_S100000_S128x1024x1_S128x1024_n_0_n_n_0_2_1_wf
def gather_S100000x512_S128x1024x1_S128x1024x512_2_0_n_n_0_2_1512 : GatherDims S100000x512 S128x1024x1 S128x1024x512 where
  offsetDims := [2]
  collapsedSliceDims := [0]
  operandBatchingDims := []
  startIndicesBatchingDims := []
  startIndexMap := [0]
  indexVectorDim := 2
  sliceSizes := ![1, 512]
  wf := gather_S100000x512_S128x1024x1_S128x1024x512_2_0_n_n_0_2_1512_wf

abbrev win0_0 : Pipeline.Window sig grid0 :=
  Pipeline.Window.ofSpec (Memref.whole main_v97) S32x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v98) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v96) S32x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v99) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128 : Shape := ⟨1, ![128]⟩
abbrev S128x1024 : Shape := ⟨2, ![128, 1024]⟩
abbrev S100000x512 : Shape := ⟨2, ![100000, 512]⟩
abbrev S500x512 : Shape := ⟨2, ![500, 512]⟩
abbrev S100000 : Shape := ⟨1, ![100000]⟩
abbrev S_ : Shape := ⟨0, ![]⟩
abbrev S128x1 : Shape := ⟨2, ![128, 1]⟩
abbrev S128x512 : Shape := ⟨2, ![128, 512]⟩
abbrev S128x1024x1 : Shape := ⟨3, ![128, 1024, 1]⟩
abbrev S128x1024x512 : Shape := ⟨3, ![128, 1024, 512]⟩
abbrev S128x256x2 : Shape := ⟨3, ![128, 256, 2]⟩
abbrev S128x256 : Shape := ⟨2, ![128, 256]⟩
abbrev S128x256x1 : Shape := ⟨3, ![128, 256, 1]⟩
abbrev S128x1x512 : Shape := ⟨3, ![128, 1, 512]⟩

abbrev nBuf : Space → Nat
  | .hbm => 151
  | .vmem => 0
  | .smem => 0
  | _ => 0

abbrev hbmTy0_0 (i : Nat) : BufTy := match i % 128 with
  | 0 => ⟨S128, .i32⟩
  | 1 => ⟨S128, .i32⟩
  | 2 => ⟨S128x1024, .i32⟩
  | 3 => ⟨S100000x512, .f32⟩
  | 4 => ⟨S500x512, .f32⟩
  | 5 => ⟨S500x512, .f32⟩
  | 6 => ⟨S500x512, .f32⟩
  | 7 => ⟨S100000, .f32⟩
  | 8 => ⟨S100000, .f32⟩
  | 9 => ⟨S_, .i32⟩
  | 10 => ⟨S128, .i32⟩
  | 11 => ⟨S128, .i1⟩
  | 12 => ⟨S_, .i32⟩
  | 13 => ⟨S128, .i32⟩
  | 14 => ⟨S128, .i32⟩
  | 15 => ⟨S128, .i32⟩
  | 16 => ⟨S128x1, .i32⟩
  | 17 => ⟨S128x512, .f32⟩
  | 18 => ⟨S_, .i32⟩
  | 19 => ⟨S128x1024, .i32⟩
  | 20 => ⟨S128x1024, .i1⟩
  | 21 => ⟨S_, .i32⟩
  | 22 => ⟨S128x1024, .i32⟩
  | 23 => ⟨S128x1024, .i32⟩
  | 24 => ⟨S128x1024, .i32⟩
  | 25 => ⟨S128x1024x1, .i32⟩
  | 26 => ⟨S128x1024x512, .f32⟩
  | 27 => ⟨S_, .i32⟩
  | 28 => ⟨S128, .i32⟩
  | 29 => ⟨S128, .i1⟩
  | 30 => ⟨S_, .i32⟩
  | 31 => ⟨S128, .i32⟩
  | 32 => ⟨S128, .i32⟩
  | 33 => ⟨S128, .i32⟩
  | 34 => ⟨S128x1, .i32⟩
  | 35 => ⟨S128x512, .f32⟩
  | 36 => ⟨S_, .i32⟩
  | 37 => ⟨S128, .i32⟩
  | 38 => ⟨S128, .i1⟩
  | 39 => ⟨S_, .i32⟩
  | 40 => ⟨S128, .i32⟩
  | 41 => ⟨S128, .i32⟩
  | 42 => ⟨S128, .i32⟩
  | 43 => ⟨S128x1, .i32⟩
  | 44 => ⟨S128x512, .f32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S128x1, .i32⟩
  | 53 => ⟨S128x512, .f32⟩
  | 54 => ⟨S_, .f32⟩
  | 55 => ⟨S_, .f32⟩
  | 56 => ⟨S128x512, .f32⟩
  | 57 => ⟨S_, .f32⟩
  | 58 => ⟨S128, .f32⟩
  | 59 => ⟨S128x1, .f32⟩
  | 60 => ⟨S128x1, .f32⟩
  | 61 => ⟨S_, .f32⟩
  | 62 => ⟨S128x1, .f32⟩
  | 63 => ⟨S128x1, .f32⟩
  | 64 => ⟨S_, .f32⟩
  | 65 => ⟨S128x1, .f32⟩
  | 66 => ⟨S128x1, .f32⟩
  | 67 => ⟨S128x1, .f32⟩
  | 68 => ⟨S128x512, .f32⟩
  | 69 => ⟨S128x512, .f32⟩
  | 70 => ⟨S_, .f32⟩
  | 71 => ⟨S128x1, .f32⟩
  | 72 => ⟨S128x1, .f32⟩
  | 73 => ⟨S128x512, .f32⟩
  | 74 => ⟨S128x512, .f32⟩
  | 75 => ⟨S128x512, .f32⟩
  | 76 => ⟨S128x256x2, .f32⟩
  | 77 => ⟨S128x256x2, .f32⟩
  | 78 => ⟨S_, .f32⟩
  | 79 => ⟨S128x256, .f32⟩
  | 80 => ⟨S128x256x1, .f32⟩
  | 81 => ⟨S128x256x1, .f32⟩
  | 82 => ⟨S_, .f32⟩
  | 83 => ⟨S128x256x1, .f32⟩
  | 84 => ⟨S128x256x1, .f32⟩
  | 85 => ⟨S128x256x2, .f32⟩
  | 86 => ⟨S128x256x2, .f32⟩
  | 87 => ⟨S128x256x2, .f32⟩
  | 88 => ⟨S128x256x1, .f32⟩
  | 89 => ⟨S128x256, .f32⟩
  | 90 => ⟨S128x256x1, .f32⟩
  | 91 => ⟨S128x256, .f32⟩
  | 92 => ⟨S128x256, .f32⟩
  | 93 => ⟨S128x256x1, .f32⟩
  | 94 => ⟨S128x256, .f32⟩
  | 95 => ⟨S128x256x1, .f32⟩
  | 96 => ⟨S128x256, .f32⟩
  | 97 => ⟨S128x256, .f32⟩
  | 98 => ⟨S128x256, .f32⟩
  | 99 => ⟨S128x256x1, .f32⟩
  | 100 => ⟨S128x256, .f32⟩
  | 101 => ⟨S128x256x1, .f32⟩
  | 102 => ⟨S128x256, .f32⟩
  | 103 => ⟨S128x256, .f32⟩
  | 104 => ⟨S128x256x1, .f32⟩
  | 105 => ⟨S128x256, .f32⟩
  | 106 => ⟨S128x256x1, .f32⟩
  | 107 => ⟨S128x256, .f32⟩
  | 108 => ⟨S128x256, .f32⟩
  | 109 => ⟨S128x256, .f32⟩
  | 110 => ⟨S128x256x1, .f32⟩
  | 111 => ⟨S128x256x1, .f32⟩
  | 112 => ⟨S128x256x2, .f32⟩
  | 113 => ⟨S128x512, .f32⟩
  | 114 => ⟨S128x512, .f32⟩
  | 115 => ⟨S128x512, .f32⟩
  | 116 => ⟨S128x1x512, .f32⟩
  | 117 => ⟨S128x1024x512, .f32⟩
  | 118 => ⟨S128x1024x512, .f32⟩
  | 119 => ⟨S_, .f32⟩
  | 120 => ⟨S128x1024x512, .f32⟩
  | 121 => ⟨S128x1024x512, .f32⟩
  | 122 => ⟨S128x1024x512, .f32⟩
  | 123 => ⟨S_, .f32⟩
  | 124 => ⟨S128x1024, .f32⟩
  | 125 => ⟨S128x1024, .f32⟩
  | 126 => ⟨S_, .f32⟩
  | 127 => ⟨S128x1024, .f32⟩
  | _ => ⟨S128, .i32⟩

abbrev hbmTy0_1 (i : Nat) : BufTy := match i % 128 with
  | 0 => ⟨S128x1024, .f32⟩
  | 1 => ⟨S_, .i32⟩
  | 2 => ⟨S128, .i32⟩
  | 3 => ⟨S128, .i1⟩
  | 4 => ⟨S_, .i32⟩
  | 5 => ⟨S128, .i32⟩
  | 6 => ⟨S128, .i32⟩
  | 7 => ⟨S128, .i32⟩
  | 8 => ⟨S128x1, .i32⟩
  | 9 => ⟨S128, .f32⟩
  | 10 => ⟨S128x1, .f32⟩
  | 11 => ⟨S128x1024, .f32⟩
  | 12 => ⟨S128x1024, .f32⟩
  | 13 => ⟨S_, .i32⟩
  | 14 => ⟨S128x1024, .i32⟩
  | 15 => ⟨S128x1024, .i1⟩
  | 16 => ⟨S_, .i32⟩
  | 17 => ⟨S128x1024, .i32⟩
  | 18 => ⟨S128x1024, .i32⟩
  | 19 => ⟨S128x1024, .i32⟩
  | 20 => ⟨S128x1024x1, .i32⟩
  | 21 => ⟨S128x1024, .f32⟩
  | 22 => ⟨S128x1024, .f32⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_call0_v0 : Ref sig .tc := ⟨.hbm, 56, rfl⟩
abbrev main_call0_cst : Ref sig .tc := ⟨.hbm, 57, rfl⟩
abbrev main_call0_v1 : Ref sig .tc := ⟨.hbm, 58, rfl⟩
abbrev main_call0_v2 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_v0 : Ref sig .tc := ⟨.hbm, 77, rfl⟩
abbrev main_call1_cst : Ref sig .tc := ⟨.hbm, 78, rfl⟩
abbrev main_call1_v1 : Ref sig .tc := ⟨.hbm, 79, rfl⟩
abbrev main_call1_v2 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_11 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_12 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_c_14 : Ref sig .tc := ⟨.hbm, 129, rfl⟩
abbrev main_v96 : Ref sig .tc := ⟨.hbm, 130, rfl⟩
abbrev main_v97 : Ref sig .tc := ⟨.hbm, 131, rfl⟩
abbrev main_c_15 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_16 : Ref sig .tc := ⟨.hbm, 141, rfl⟩
abbrev main_v106 : Ref sig .tc := ⟨.hbm, 142, rfl⟩
abbrev main_v107 : Ref sig .tc := ⟨.hbm, 143, rfl⟩
abbrev main_c_17 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  reducesTo_S128x512_S128_d1 : S128x512.ReducesTo [1] S128
  h_S_ : 0 < S_.numel
  bcast_S_S128x1 : S_.BroadcastsInDim S128x1 (![] : Fin 0 → Fin S128x1.rank)
  bcast_S128x1_S128x512_0_1 : S128x1.BroadcastsInDim S128x512 (![0, 1] : Fin 2 → Fin S128x512.rank)
  shapeCasts_S128x512_S128x256x2 : S128x512.ShapeCasts S128x256x2
  reducesTo_S128x256x2_S128x256_d2 : S128x256x2.ReducesTo [2] S128x256
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x2_0_1_2 : S128x256x1.BroadcastsInDim S128x256x2 (![0, 1, 2] : Fin 3 → Fin S128x256x2.rank)
  slices_S128x256x2_S128x256x1_0_0_0 : S128x256x2.Slices ![0, 0, 0] S128x256x1
  shapeCasts_S128x256x1_S128x256 : S128x256x1.ShapeCasts S128x256
  slices_S128x256x2_S128x256x1_0_0_1 : S128x256x2.Slices ![0, 0, 1] S128x256x1
  concatenates_S128x256x1_S128x256x1_S128x256x2_d2 : Shape.Concatenates [S128x256x1, S128x256x1] S128x256x2 2
  shapeCasts_S128x256x2_S128x512 : S128x256x2.ShapeCasts S128x512
  bcast_S128x512_S128x1x512_0_2 : S128x512.BroadcastsInDim S128x1x512 (![0, 2] : Fin 2 → Fin S128x1x512.rank)
  bcast_S128x1x512_S128x1024x512_0_1_2 : S128x1x512.BroadcastsInDim S128x1024x512 (![0, 1, 2] : Fin 3 → Fin S128x1024x512.rank)
  bcast_S_S128x1024x512 : S_.BroadcastsInDim S128x1024x512 (![] : Fin 0 → Fin S128x1024x512.rank)
  reducesTo_S128x1024x512_S128x1024_d2 : S128x1024x512.ReducesTo [2] S128x1024
  bcast_S128x1_S128x1024_0_1 : S128x1.BroadcastsInDim S128x1024 (![0, 1] : Fin 2 → Fin S128x1024.rank)
  gather_S100000x512_S128x1_S128x512_1_0_n_n_0_1_1512_wf : GatherDims.WF S100000x512 S128x1 S128x512 [1] [0] [] [0] [] 1 ![1, 512]
  gather_S100000x512_S128x1024x1_S128x1024x512_2_0_n_n_0_2_1512_wf : GatherDims.WF S100000x512 S128x1024x1 S128x1024x512 [2] [0] [] [0] [] 2 ![1, 512]
  gather_S500x512_S128x1_S128x512_1_0_n_n_0_1_1512_wf : GatherDims.WF S500x512 S128x1 S128x512 [1] [0] [] [0] [] 1 ![1, 512]
  gather_S100000_S128x1_S128_n_0_n_n_0_1_1_wf : GatherDims.WF S100000 S128x1 S128 [] [0] [] [0] [] 1 ![1]
  gather_S100000_S128x1024x1_S128x1024_n_0_n_n_0_2_1_wf : GatherDims.WF S100000 S128x1024x1 S128x1024 [] [0] [] [0] [] 2 ![1]

variable [Facts₀]

def gather_S100000x512_S128x1_S128x512_1_0_n_n_0_1_1512 : GatherDims S100000x512 S128x1 S128x512 where
  offsetDims := [1]
  collapsedSliceDims := [0]
  operandBatchingDims := []
  startIndicesBatchingDims := []
  startIndexMap := [0]
  indexVectorDim := 1
  sliceSizes := ![1, 512]
  wf := gather_S100000x512_S128x1_S128x512_1_0_n_n_0_1_1512_wf
def gather_S100000x512_S128x1024x1_S128x1024x512_2_0_n_n_0_2_1512 : GatherDims S100000x512 S128x1024x1 S128x1024x512 where
  offsetDims := [2]
  collapsedSliceDims := [0]
  operandBatchingDims := []
  startIndicesBatchingDims := []
  startIndexMap := [0]
  indexVectorDim := 2
  sliceSizes := ![1, 512]
  wf := gather_S100000x512_S128x1024x1_S128x1024x512_2_0_n_n_0_2_1512_wf
def gather_S500x512_S128x1_S128x512_1_0_n_n_0_1_1512 : GatherDims S500x512 S128x1 S128x512 where
  offsetDims := [1]
  collapsedSliceDims := [0]
  operandBatchingDims := []
  startIndicesBatchingDims := []
  startIndexMap := [0]
  indexVectorDim := 1
  sliceSizes := ![1, 512]
  wf := gather_S500x512_S128x1_S128x512_1_0_n_n_0_1_1512_wf
def gather_S100000_S128x1_S128_n_0_n_n_0_1_1 : GatherDims S100000 S128x1 S128 where
  offsetDims := []
  collapsedSliceDims := [0]
  operandBatchingDims := []
  startIndicesBatchingDims := []
  startIndexMap := [0]
  indexVectorDim := 1
  sliceSizes := ![1]
  wf := gather_S100000_S128x1_S128_n_0_n_n_0_1_1_wf
def gather_S100000_S128x1024x1_S128x1024_n_0_n_n_0_2_1 : GatherDims S100000 S128x1024x1 S128x1024 where
  offsetDims := []
  collapsedSliceDims := [0]
  operandBatchingDims := []
  startIndicesBatchingDims := []
  startIndexMap := [0]
  indexVectorDim := 2
  sliceSizes := ![1]
  wf := gather_S100000_S128x1024x1_S128x1024_n_0_n_n_0_2_1_wf

class Facts : Prop extends Facts₀ where

variable [Facts]
-- ==== Proof.Spec.lean ====
/-
  The score both programs compute, as one function of four arrays.

  For a batch row `b` and a candidate `j` the score is
      (9 - sqrt (∑ₖ (head[b,k] - tail[b,j,k] + ε)²)) + bh[b] + bt[b,j]
  with ε the single-precision word nearest 1e-6 and the sum over the 512 lanes of the embedding.  `head` is the
  transformed head embedding (one row per batch element), `tail` the candidates' embeddings, `bh` and `bt` the two
  bias terms.  The four arrays are parameters here: nothing in this file knows how they were computed.

  The same score is written twice, for the two layouts the arrays arrive in: `score` takes the head rows as a
  [128, 512] array and the head bias as a vector; `kscore` takes the head rows as [128, 1, 512] and the head bias as
  a column [128, 1].  `kscore_eq_score` says they agree when the arrays agree entry by entry.

  Also here: the square root of the word 1.0 is that word (the only place where the two programs' head transforms
  are not the same text).
-/
import Idealize.ShloMosaic.PureOps.Ideal.Laws
import Idealize.ShloMosaic.Lib.ValueIdx

noncomputable section

open scoped BigOperators

namespace Cert.RotDist

open Idealize.ShloMosaic Idealize.ShloMosaic.ValueIdx

/-- One lane of the squared distance from a head entry `h` and a tail entry `t`: `(h - t + ε)²`. -/
def laneOf (h t : Ideal .f32) : Ideal .f32 :=
  FloatOps.mulf
    (FloatOps.addf (FloatOps.subf h t) (FloatOps.ofBits .f32 0x358637BD#32))
    (FloatOps.addf (FloatOps.subf h t) (FloatOps.ofBits .f32 0x358637BD#32))

/-- The score from the summed squares `s` and the two bias entries: `(9 - sqrt s) + bh + bt`. -/
def scoreOf (s bh bt : Ideal .f32) : Ideal .f32 :=
  FloatOps.addf (FloatOps.addf (FloatOps.subf (FloatOps.ofBits .f32 0x41100000#32) (Ideal.sqrt s)) bh) bt

/-- The score at batch row `b` and candidate `j`, head rows as [128, 512], head bias as a vector. -/
def scoreAt (H : FVec Ideal ⟨2, ![128, 512]⟩ .f32) (T : FVec Ideal ⟨3, ![128, 1024, 512]⟩ .f32)
    (BH : FVec Ideal ⟨1, ![128]⟩ .f32) (BT : FVec Ideal ⟨2, ![128, 1024]⟩ .f32) (b : Fin 128) (j : Fin 1024) : Ideal .f32 :=
  scoreOf (∑ k : Fin 512, laneOf (H (ix2 b k)) (T (ix3 b j k))) (BH (ix1 b)) (BT (ix2 b j))

/-- The whole score array, in that layout. -/
def score (H : FVec Ideal ⟨2, ![128, 512]⟩ .f32) (T : FVec Ideal ⟨3, ![128, 1024, 512]⟩ .f32)
    (BH : FVec Ideal ⟨1, ![128]⟩ .f32) (BT : FVec Ideal ⟨2, ![128, 1024]⟩ .f32) : FVec Ideal ⟨2, ![128, 1024]⟩ .f32 :=
  fun i => scoreAt H T BH BT (i 0) (i 1)

/-- The score at batch row `b` and candidate `j`, head rows as [128, 1, 512], head bias as a column [128, 1]. -/
def kscoreAt (H3 : FVec Ideal ⟨3, ![128, 1, 512]⟩ .f32) (T : FVec Ideal ⟨3, ![128, 1024, 512]⟩ .f32)
    (BH2 : FVec Ideal ⟨2, ![128, 1]⟩ .f32) (BT : FVec Ideal ⟨2, ![128, 1024]⟩ .f32) (b : Fin 128) (j : Fin 1024) : Ideal .f32 :=
  scoreOf (∑ k : Fin 512, laneOf (H3 (ix3 b (0 : Fin 1) k)) (T (ix3 b j k))) (BH2 (ix2 b (0 : Fin 1))) (BT (ix2 b j))

/-- The whole score array, in that layout. -/
def kscore (H3 : FVec Ideal ⟨3, ![128, 1, 512]⟩ .f32) (T : FVec Ideal ⟨3, ![128, 1024, 512]⟩ .f32)
    (BH2 : FVec Ideal ⟨2, ![128, 1]⟩ .f32) (BT : FVec Ideal ⟨2, ![128, 1024]⟩ .f32) : FVec Ideal ⟨2, ![128, 1024]⟩ .f32 :=
  fun i => kscoreAt H3 T BH2 BT (i 0) (i 1)

theorem kscore_ix2 (H3 : FVec Ideal ⟨3, ![128, 1, 512]⟩ .f32) (T : FVec Ideal ⟨3, ![128, 1024, 512]⟩ .f32)
    (BH2 : FVec Ideal ⟨2, ![128, 1]⟩ .f32) (BT : FVec Ideal ⟨2, ![128, 1024]⟩ .f32) (b : Fin 128) (j : Fin 1024) :
    kscore H3 T BH2 BT (ix2 b j) = kscoreAt H3 T BH2 BT b j := rfl

/-- The two layouts give one score when the head rows, the tails and the two biases agree entry by entry. -/
theorem kscore_eq_score (H3 : FVec Ideal ⟨3, ![128, 1, 512]⟩ .f32) (H : FVec Ideal ⟨2, ![128, 512]⟩ .f32)
    (T T' : FVec Ideal ⟨3, ![128, 1024, 512]⟩ .f32)
    (BH2 : FVec Ideal ⟨2, ![128, 1]⟩ .f32) (BH : FVec Ideal ⟨1, ![128]⟩ .f32) (BT BT' : FVec Ideal ⟨2, ![128, 1024]⟩ .f32)
    (hH : ∀ (b : Fin 128) (k : Fin 512), H3 (ix3 b (0 : Fin 1) k) = H (ix2 b k)) (hT : T = T')
    (hBH : ∀ b : Fin 128, BH2 (ix2 b (0 : Fin 1)) = BH (ix1 b)) (hBT : BT = BT') :
    kscore H3 T BH2 BT = score H T' BH BT' := by
  subst hT hBT
  funext i
  obtain ⟨b, j, rfl⟩ : ∃ (b : Fin 128) (j : Fin 1024), i = ix2 b j := ⟨i 0, i 1, eq_ix2 i⟩
  show kscoreAt H3 T BH2 BT b j = scoreAt H T BH BT b j
  unfold kscoreAt scoreAt
  rw [hBH b]
  exact congrArg (fun s => scoreOf s (BH (ix1 b)) (BT (ix2 b j)))
    (Finset.sum_congr rfl fun k _ => by rw [hH b k])

/-- The word `0x3F800000` is the real number one. -/
theorem ofBits_one_f32 : Ideal.ofBits .f32 0x3F800000#32 = 1 := by
  simp [Ideal.ofBits, Ideal.ieee, -EReal.coe_mul]; norm_num

/-- The square root of one is one: the host's square root of the word 1.0 is that word again. -/
theorem sqrt_one_word : Ideal.sqrt (Ideal.ofBits .f32 0x3F800000#32) = Ideal.ofBits .f32 0x3F800000#32 := by
  rw [ofBits_one_f32]
  show Ideal.sqrt ((1 : ℝ) : EReal) = 1
  rw [Ideal.sqrt_coe, if_neg (by norm_num), Real.sqrt_one]
  rfl

end Cert.RotDist

end
-- ==== Proof.KernelBlock.lean ====
/-
  One block of the kernel's output, entry by entry.

  At a grid point the body holds a block of 32 head rows (as [32, 1, 512]), the matching [32, 128, 512] block of tail
  embeddings, the 32 head biases (as a column) and a [32, 128] block of tail biases.  It spreads each head row over
  the 128 candidates, subtracts the tails, adds ε, squares, sums the 512 lanes, takes the square root, subtracts it from
  nine and adds the two biases.  Read at the entry `(p, q)` of the block this is the score of the summed squares of
  row `p` against candidate `q` and the two bias entries: the lane reduction at the ideal values is a plain sum
  over the lanes, and spreading a row over the candidates reads the row itself.
-/
import proofs.«119861_j781684048762_1_alg».proof.Proof.Gen.KernelIdeal.Value
import proofs.«119861_j781684048762_1_alg».proof.Proof.Spec
import Idealize.ShloMosaic.Lib.Pipeline.Value
import Idealize.ShloMosaic.Lib.ValueIdx
import Idealize.ShloMosaic.PureOps.Ideal.Laws

noncomputable section

open scoped BigOperators

namespace Cert.RotDist

open Idealize.ShloMosaic Idealize.ShloMosaic.ValueIdx Cert.KernelIdeal Cert.KernelIdeal.Gen

/-- The squared shifted difference of the spread head block and the tail block, read at row `p`, candidate `q`,
    lane `k`: the spread reads the head block's row `p` at lane `k`. -/
theorem lane_read (P0 : Vec Ideal S32x1x512 .f32) (P1 : Vec Ideal S32x128x512 .f32)
    (x : S32x128x512.Idx) (p : Fin 32) (q : Fin 128) (k : Fin 512) (hx : x = ix3 p q k) :
    (mulf (addf (subf (broadcastTo S32x128x512 (shapeCast S32x1x512 P0 shapeCasts_S32x1x512_S32x1x512) broadcasts_S32x1x512_S32x128x512)
        (shapeCast S32x128x512 P1 shapeCasts_S32x128x512_S32x128x512)) (broadcast S32x128x512 (Scalar.ofBits .f32 0x358637BD#32)))
      (addf (subf (broadcastTo S32x128x512 (shapeCast S32x1x512 P0 shapeCasts_S32x1x512_S32x1x512) broadcasts_S32x1x512_S32x128x512)
        (shapeCast S32x128x512 P1 shapeCasts_S32x128x512_S32x128x512)) (broadcast S32x128x512 (Scalar.ofBits .f32 0x358637BD#32)))) x
      = laneOf (P0 (ix3 p (0 : Fin 1) k)) (P1 (ix3 p q k)) := by
  subst hx
  rw [shapeCast_self P0, shapeCast_self P1]
  have hb : broadcastTo S32x128x512 P0 broadcasts_S32x1x512_S32x128x512 (ix3 p q k) = P0 (ix3 p (0 : Fin 1) k) :=
    broadcastTo_apply P0 broadcasts_S32x1x512_S32x128x512 (ix3 p q k) (ix3 p (0 : Fin 1) k) (fun a => match a with
      | ⟨0, _⟩ => by show p.val = if (32 : Nat) = 1 then 0 else p.val; rw [if_neg (by decide)]
      | ⟨1, _⟩ => by show 0 = if (1 : Nat) = 1 then 0 else q.val; rw [if_pos rfl]
      | ⟨2, _⟩ => by show k.val = if (512 : Nat) = 1 then 0 else k.val; rw [if_neg (by decide)])
  show laneOf (broadcastTo S32x128x512 P0 broadcasts_S32x1x512_S32x128x512 (ix3 p q k)) (P1 (ix3 p q k)) = _
  rw [hb]

/-- The block's entry `(p, q)`: the score of the lane sum of row `p` against candidate `q` and the two bias entries. -/
theorem block_read (P0 : Vec Ideal S32x1x512 .f32) (P1 : Vec Ideal S32x128x512 .f32) (P2 : Vec Ideal S32x1 .f32)
    (P3 : Vec Ideal S32x128 .f32) (p : Fin 32) (q : Fin 128) :
    Cert.KernelIdeal.Value.E4 (F := Ideal) P0 P1 P2 P3 (ix2 p q)
      = scoreOf (∑ k : Fin 512, laneOf (P0 (ix3 p (0 : Fin 1) k)) (P1 (ix3 p q k))) (P2 (ix2 p (0 : Fin 1))) (P3 (ix2 p q)) := by
  have h0 : Cert.KernelIdeal.Value.ix4_0 (ix2 p q) = ix2 p q :=
    funext fun a => Fin.ext (by match a with | ⟨0, _⟩ => rfl | ⟨1, _⟩ => rfl)
  have h1 : Cert.KernelIdeal.Value.ix4_1 (ix2 p q) = ix2 p (0 : Fin 1) :=
    funext fun a => Fin.ext (by match a with | ⟨0, _⟩ => rfl | ⟨1, _⟩ => rfl)
  have h2 : Cert.KernelIdeal.Value.ix4_2 (ix2 p q) = ix2 p q :=
    funext fun a => Fin.ext (by match a with | ⟨0, _⟩ => rfl | ⟨1, _⟩ => rfl)
  unfold Cert.KernelIdeal.Value.E4
  rw [h0, h1, h2]
  refine congrArg (fun s => scoreOf s (P2 (ix2 p (0 : Fin 1))) (P3 (ix2 p q))) ?_
  refine (Ideal.multiReduction_add_single _ 0x00000000#32 reduces_S32x128x512_S32x128 (.inl rfl) rfl (ix2 p q)).trans ?_
  show ∑ k : Fin 512, _ = _
  refine Finset.sum_congr rfl fun k _ => ?_
  exact lane_read P0 P1 _ p q k (funext fun a => Fin.ext (by
    match a with | ⟨0, _⟩ => rfl | ⟨1, _⟩ => rfl | ⟨2, _⟩ => rfl))

end Cert.RotDist

end
-- ==== Proof.KernelValue.lean ====
/-
  The kernel's output array is the score of the four arrays its region is launched on.

  The region runs over a 4 × 8 grid.  Point `(g0, g1)` works on batch rows `32·g0 … 32·g0 + 31` and candidates
  `128·g1 … 128·g1 + 127`: it is handed those head rows (all 512 lanes, whatever `g1`), their head biases, the tail
  embeddings and tail biases of exactly those rows and candidates, and writes back that block of the output.  So the
  entry `(p, q)` of what a point writes is the score at row `32·g0 + p`, candidate `128·g1 + q` of the whole arrays;
  every entry of the [128, 1024] output lies in the block of the point `(row / 32, candidate / 128)`; and the output
  array ends holding the score everywhere.  The four arrays are the contents the region finds in the buffers its
  operands name; what the host computed into them is not looked at here.
-/
import proofs.«119861_j781684048762_1_alg».proof.Proof.Gen.KernelIdeal.Value
import proofs.«119861_j781684048762_1_alg».proof.Proof.KernelBlock
import Idealize.ShloMosaic.Lib.Pipeline.Value
import Idealize.ShloMosaic.Lib.ValueIdx

noncomputable section

open scoped BigOperators

namespace Cert.RotDist

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- How the five windows move over the grid, decided once over its 32 points: the head rows and head biases follow the
    output's row block and stay at block 0 on their other axes; the tails follow both of the output's blocks and stay
    at block 0 on the lanes; the tail biases move exactly as the output; and the output's block numbers stay below 4
    and 8. -/
theorem window_moves : ∀ t : Fin cfg0.N,
    win0_0.index t (0 : Fin 3) = win0_4.index t (0 : Fin 2) ∧ win0_0.index t (1 : Fin 3) = 0 ∧ win0_0.index t (2 : Fin 3) = 0
    ∧ win0_1.index t (0 : Fin 2) = win0_4.index t (0 : Fin 2) ∧ win0_1.index t (1 : Fin 2) = 0
    ∧ win0_2.index t (0 : Fin 3) = win0_4.index t (0 : Fin 2) ∧ win0_2.index t (1 : Fin 3) = win0_4.index t (1 : Fin 2)
      ∧ win0_2.index t (2 : Fin 3) = 0
    ∧ win0_3.index t (0 : Fin 2) = win0_4.index t (0 : Fin 2) ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every block of the output is some point's. -/
theorem every_block : ∀ (g0 : Fin 4) (g1 : Fin 8), ∃ t : Fin cfg0.N, win0_4.index t = ![g0.val, g1.val] :=
  (by decide +kernel : ∀ (g0 : Fin 4) (g1 : Fin 8), ∃ t : Fin grid0.N, win0_4.index t = ![g0.val, g1.val])

/-- Entry `(p, q)` of the block point `t` computes is the score of the whole arrays at the entry of the output that
    block entry lands on. -/
theorem point_entry (c : Dev nD) (t : Fin cfg0.N) (p : Fin 32) (q : Fin 128) :
    Cert.KernelIdeal.Value.E4 (F := Ideal) (iblk m c 0 t) (iblk m c 2 t) (iblk m c 1 t) (iblk m c 3 t) (ix2 p q)
      = kscore (V m c main_v97) (V m c main_v96) (V m c main_v98) (V m c main_v41)
          (((cfg0.win 4).blk t).view.emb (ix2 p q)) := by
  obtain ⟨e00, e01, e02, e10, e11, e20, e21, e22, e30, e31, hg0, hg1⟩ := window_moves t
  have hp : p.val < 32 := p.isLt
  have hq : q.val < 128 := q.isLt
  have hb : win0_4.index t (0 : Fin 2) * 32 + p.val < 128 := by omega
  have hj : win0_4.index t (1 : Fin 2) * 128 + q.val < 1024 := by omega
  have hI : ((cfg0.win 4).blk t).view.emb (ix2 p q)
      = ix2 (⟨win0_4.index t (0 : Fin 2) * 32 + p.val, hb⟩ : Fin 128) (⟨win0_4.index t (1 : Fin 2) * 128 + q.val, hj⟩ : Fin 1024) := by
    funext a; apply Fin.ext
    match a with
    | ⟨0, _⟩ => show win0_4.index t (0 : Fin 2) * 32 + 1 * p.val = win0_4.index t (0 : Fin 2) * 32 + p.val; omega
    | ⟨1, _⟩ => show win0_4.index t (1 : Fin 2) * 128 + 1 * q.val = win0_4.index t (1 : Fin 2) * 128 + q.val; omega
  have r0 : ∀ k : Fin 512, iblk m c 0 t (ix3 p (0 : Fin 1) k)
      = V m c main_v97 (ix3 (⟨win0_4.index t (0 : Fin 2) * 32 + p.val, hb⟩ : Fin 128) (0 : Fin 1) k) := fun k => by
    show V m c main_v97 (((cfg0.win 0).blk t).view.emb (ix3 p (0 : Fin 1) k)) = _
    refine congrArg (V m c main_v97) (funext fun a => Fin.ext ?_)
    match a with
    | ⟨0, _⟩ => show win0_0.index t (0 : Fin 3) * 32 + 1 * p.val = win0_4.index t (0 : Fin 2) * 32 + p.val; omega
    | ⟨1, _⟩ => show win0_0.index t (1 : Fin 3) * 1 + 1 * 0 = 0; omega
    | ⟨2, _⟩ => show win0_0.index t (2 : Fin 3) * 512 + 1 * k.val = k.val; omega
  have r2 : ∀ k : Fin 512, iblk m c 2 t (ix3 p q k)
      = V m c main_v96 (ix3 (⟨win0_4.index t (0 : Fin 2) * 32 + p.val, hb⟩ : Fin 128)
          (⟨win0_4.index t (1 : Fin 2) * 128 + q.val, hj⟩ : Fin 1024) k) := fun k => by
    show V m c main_v96 (((cfg0.win 2).blk t).view.emb (ix3 p q k)) = _
    refine congrArg (V m c main_v96) (funext fun a => Fin.ext ?_)
    match a with
    | ⟨0, _⟩ => show win0_2.index t (0 : Fin 3) * 32 + 1 * p.val = win0_4.index t (0 : Fin 2) * 32 + p.val; omega
    | ⟨1, _⟩ => show win0_2.index t (1 : Fin 3) * 128 + 1 * q.val = win0_4.index t (1 : Fin 2) * 128 + q.val; omega
    | ⟨2, _⟩ => show win0_2.index t (2 : Fin 3) * 512 + 1 * k.val = k.val; omega
  have r1 : iblk m c 1 t (ix2 p (0 : Fin 1))
      = V m c main_v98 (ix2 (⟨win0_4.index t (0 : Fin 2) * 32 + p.val, hb⟩ : Fin 128) (0 : Fin 1)) := by
    show V m c main_v98 (((cfg0.win 1).blk t).view.emb (ix2 p (0 : Fin 1))) = _
    refine congrArg (V m c main_v98) (funext fun a => Fin.ext ?_)
    match a with
    | ⟨0, _⟩ => show win0_1.index t (0 : Fin 2) * 32 + 1 * p.val = win0_4.index t (0 : Fin 2) * 32 + p.val; omega
    | ⟨1, _⟩ => show win0_1.index t (1 : Fin 2) * 1 + 1 * 0 = 0; omega
  have r3 : iblk m c 3 t (ix2 p q)
      = V m c main_v41 (ix2 (⟨win0_4.index t (0 : Fin 2) * 32 + p.val, hb⟩ : Fin 128)
          (⟨win0_4.index t (1 : Fin 2) * 128 + q.val, hj⟩ : Fin 1024)) := by
    show V m c main_v41 (((cfg0.win 3).blk t).view.emb (ix2 p q)) = _
    refine congrArg (V m c main_v41) (funext fun a => Fin.ext ?_)
    match a with
    | ⟨0, _⟩ => show win0_3.index t (0 : Fin 2) * 32 + 1 * p.val = win0_4.index t (0 : Fin 2) * 32 + p.val; omega
    | ⟨1, _⟩ => show win0_3.index t (1 : Fin 2) * 128 + 1 * q.val = win0_4.index t (1 : Fin 2) * 128 + q.val; omega
  rw [hI, kscore_ix2]
  refine (block_read (iblk m c 0 t) (iblk m c 2 t) (iblk m c 1 t) (iblk m c 3 t) p q).trans ?_
  unfold kscoreAt
  rw [r1, r3]
  exact congrArg (fun s => scoreOf s _ _) (Finset.sum_congr rfl fun k _ => by rw [r0 k, r2 k])

/-- What point `t` writes back is its block of the score array. -/
theorem point_writes (c : Dev nD) (t : Fin cfg0.N) :
    (dats m 0 c).flushed 4 t
      = ((cfg0.win 4).blk t).view.read (Elt Ideal)
          (kscore (V m c main_v97) (V m c main_v96) (V m c main_v98) (V m c main_v41)) := by
  rw [Cert.KernelIdeal.Value.flushed4]
  unfold out0_4
  simp only [View.ld_unit_zero (S := S32x1x512) zero3, View.ld_unit_zero (S := S32x1) zero2,
    View.ld_unit_zero (S := S32x128x512) zero3, View.ld_unit_zero (S := S32x128) zero2]
  refine funext fun (y : S32x128.Idx) => ?_
  show View.canon ([⟨r0_3, k0_pay1 (iblk m c 0 t) (iblk m c 2 t) (iblk m c 1 t) (iblk m c 3 t)⟩] :
        List (View.Piece (Elt Ideal) S32x128 .f32)) y
      = kscore (V m c main_v97) (V m c main_v96) (V m c main_v98) (V m c main_v41) (((cfg0.win 4).blk t).view.emb y)
  refine (Cert.KernelIdeal.Value.canon4_eq (F := Ideal) (iblk m c 0 t) (iblk m c 2 t) (iblk m c 1 t) (iblk m c 3 t) y).trans ?_
  obtain ⟨p, q, rfl⟩ : ∃ (p : Fin 32) (q : Fin 128), y = ix2 p q := ⟨y 0, y 1, eq_ix2 y⟩
  exact point_entry m c t p q

/-- An entry of the output is in point `t`'s block iff each coordinate is in the block's range on its axis. -/
theorem mem_block (t : Fin cfg0.N) (i : S128x1024.Idx) :
    i ∈ ((cfg0.win 4).blk t).view.set
      ↔ ∀ a : Fin 2, win0_4.index t a * S32x128.size a ≤ (i a).val ∧ (i a).val < win0_4.index t a * S32x128.size a + S32x128.size a := by
  show i ∈ ((View.whole main_v99).slice (win0_4.rect t)).set ↔ _
  rw [View.set_slice_whole, Rect.mem_set_unit]
  exact Iff.rfl

/-- Every entry of the output lies in the block of the point `(row / 32, candidate / 128)`, which writes back. -/
theorem blocks_cover (i : S128x1024.Idx) :
    ∃ t : Fin cfg0.N, (cfg0.win 4).flush t = true ∧ i ∈ ((cfg0.win 4).blk t).view.set := by
  have hi0 : (i 0).val < 128 := (i 0).isLt
  have hi1 : (i 1).val < 1024 := (i 1).isLt
  obtain ⟨t, ht⟩ := every_block ⟨(i 0).val / 32, by omega⟩ ⟨(i 1).val / 128, by omega⟩
  have g0 : win0_4.index t (0 : Fin 2) = (i 0).val / 32 := congrFun ht 0
  have g1 : win0_4.index t (1 : Fin 2) = (i 1).val / 128 := congrFun ht 1
  refine ⟨t, flush0_4 t, ?_⟩
  rw [mem_block]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 128 ≤ (i 1).val ∧ (i 1).val < win0_4.index t (1 : Fin 2) * 128 + 128; omega

/-- The output array after the run is the score of the four arrays the region finds. -/
theorem output_array (c : Dev nD) :
    (dats m 0 c).arrAt 4 cfg0.N = kscore (V m c main_v97) (V m c main_v96) (V m c main_v98) (V m c main_v41) :=
  (dats m 0 c).arrAt_eq_of_cover 4 _ (fun t _ => point_writes m c t) blocks_cover

/-- The kernel's run: it ends with the output array at that score and the nine arguments as launched. -/
theorem kernel_run : θ_run defs (onTc (τ := τ) (main (F := Ideal))) ⟨m, fun _ => 0, ρ⟩ fun r => ∀ c : Dev nD,
      r.2.mem ((c : Thread nD τ).loc main_v99) = kscore (V m c main_v97) (V m c main_v96) (V m c main_v98) (V m c main_v41)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (output_array m c), (h c).2⟩)
    (Cert.KernelIdeal.Value.run_blocks m ρ)

end Cert.RotDist

end
-- ==== Proof.RefRead.lean ====
/-
  The reference's result is the score of four of its own intermediate arrays.

  After the head transform the reference spreads the head rows over the candidates ([128, 512] → [128, 1, 512] →
  [128, 1024, 512]), subtracts the gathered tail embeddings, adds ε, squares, sums the last axis from the zero word, takes
  the square root, subtracts it from nine, and adds the head bias (a vector spread along the candidates) and the tail
  bias.  Read at `(b, j)` that is the score of this file's specification, with the four arrays the reference's own
  stages: the transformed head rows, the gathered tails, the gathered head biases and the gathered tail biases.
  Those four stay closed: nothing here looks inside them.  The host's sum at the ideal values is the initial value
  plus the sum over the lanes, and the initial value is the zero word.
-/
import proofs.«119861_j781684048762_1_alg».proof.Proof.Gen.ReferenceIdeal.Read
import proofs.«119861_j781684048762_1_alg».proof.Proof.Spec
import Idealize.ShloMosaic.Lib.ValueIdx
import Idealize.ShloMosaic.PureOps.Ideal.Laws

noncomputable section

open scoped BigOperators

namespace Cert.RotDist

open Idealize.ShloMosaic Idealize.ShloMosaic.ValueIdx Cert.ReferenceIdeal Cert.ReferenceIdeal.Gen Cert.ReferenceIdeal.Read

/-- One lane of the reference's squared difference, at `(b, j, k)`: the spread head rows read row `b` at lane `k`. -/
theorem ref_lane (x0 x1 : (⟨S128, .i32⟩ : BufTy).Contents (Elt Ideal)) (x2 : (⟨S128x1024, .i32⟩ : BufTy).Contents (Elt Ideal))
    (x3 : (⟨S100000x512, .f32⟩ : BufTy).Contents (Elt Ideal)) (x4 x5 x6 : (⟨S500x512, .f32⟩ : BufTy).Contents (Elt Ideal))
    (b : Fin 128) (j : Fin 1024) (k : Fin 512) :
    val_main_v91 (F := Ideal) x0 x1 x2 x3 x4 x5 x6 (idx_main_v92 (ix2 b j) k)
      = laneOf (val_main_v85 (F := Ideal) x0 x1 x3 x4 x5 x6 (ix2 b k)) (val_main_v13 (F := Ideal) x2 x3 (ix3 b j k)) := by
  have e2 : idx_main_v92 (ix2 b j) k = ix3 b j k :=
    funext fun a => Fin.ext (by match a with | ⟨0, _⟩ => rfl | ⟨1, _⟩ => rfl | ⟨2, _⟩ => rfl)
  have e1 : idx_main_v86 (idx_main_v87 (ix3 b j k)) = ix2 b k :=
    funext fun a => Fin.ext (by match a with | ⟨0, _⟩ => rfl | ⟨1, _⟩ => rfl)
  rw [e2, val_main_v91_apply, val_main_v90_apply, val_main_v89_apply, val_main_cst_11_apply, val_main_v88_apply,
    val_main_v87_apply, val_main_v86_apply, e1]
  rfl

/-- The reference's result array is the score of its transformed head rows, gathered tails and gathered biases. -/
theorem reference_score (x0 x1 : (⟨S128, .i32⟩ : BufTy).Contents (Elt Ideal)) (x2 : (⟨S128x1024, .i32⟩ : BufTy).Contents (Elt Ideal))
    (x3 : (⟨S100000x512, .f32⟩ : BufTy).Contents (Elt Ideal)) (x4 x5 x6 : (⟨S500x512, .f32⟩ : BufTy).Contents (Elt Ideal))
    (x7 x8 : (⟨S100000, .f32⟩ : BufTy).Contents (Elt Ideal)) :
    val_main_v113 (F := Ideal) x0 x1 x2 x3 x4 x5 x6 x7 x8
      = score (val_main_v85 (F := Ideal) x0 x1 x3 x4 x5 x6) (val_main_v13 (F := Ideal) x2 x3)
          (val_main_v102 (F := Ideal) x0 x7) (val_main_v112 (F := Ideal) x2 x8) := by
  funext i
  obtain ⟨b, j, rfl⟩ : ∃ (b : Fin 128) (j : Fin 1024), i = ix2 b j := ⟨i 0, i 1, eq_ix2 i⟩
  have hbh : idx_main_v103 (idx_main_v104 (ix2 b j)) = ix1 b :=
    funext fun a => Fin.ext (by match a with | ⟨0, _⟩ => rfl)
  have hsum : val_main_v92 (F := Ideal) x0 x1 x2 x3 x4 x5 x6 (ix2 b j)
      = ∑ k : Fin 512, laneOf (val_main_v85 (F := Ideal) x0 x1 x3 x4 x5 x6 (ix2 b k)) (val_main_v13 (F := Ideal) x2 x3 (ix3 b j k)) := by
    rw [val_main_v92_apply, val_main_cst_12_apply, Ideal.ofBits_def, Ideal.ofBits_zero_f32, zero_add]
    exact Finset.sum_congr rfl fun k _ => ref_lane x0 x1 x2 x3 x4 x5 x6 b j k
  rw [val_main_v113_apply, val_main_v105_apply, val_main_v95_apply, val_main_v94_apply, val_main_cst_13_apply,
    val_main_v93_apply, hsum, val_main_v104_apply, val_main_v103_apply, hbh]
  rfl

end Cert.RotDist

end
-- ==== Proof.HostLower.lean ====
/-
  The head transform before the rotation, and the three relation rows, on both sides.

  The kernel's program reaches its region through five stretches of host operations.  After the first three it has
  gathered the head entity's embedding and the relation's rotation, centre and translation rows, and has computed
  `x = tanh(s·n)·e / (s·n) + centre`, with `e` the embedding, `n` its norm clamped below by 1e-15 and `s` the
  constant one.  The reference computes the same `x` with `s` the square root of the constant one.  This file says
  that the buffers holding `x`, the rotation row recast to pairs, the centre and the translation are, at that point
  of the kernel's program, the reference's corresponding stages of the same arguments: the same operations in the
  same order, and the square root of one is one.
-/
import proofs.«119861_j781684048762_1_alg».proof.Proof.Gen.KernelIdeal.Frame
import proofs.«119861_j781684048762_1_alg».proof.Proof.Gen.ReferenceIdeal.Read
import proofs.«119861_j781684048762_1_alg».proof.Proof.Spec
import Idealize.ShloMosaic.Lib.StableHlo.Run
import Idealize.ShloMosaic.Lib.Pipeline.Value
import Idealize.ShloMosaic.Lib.ValueIdx

noncomputable section

namespace Cert.RotDist

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The reference's square root of the constant 1.0 is the constant 1.0. -/
theorem ref_sqrt_one : Cert.ReferenceIdeal.Read.val_main_v35 (F := Ideal) = Cert.ReferenceIdeal.Read.val_main_cst (F := Ideal) := by
  funext i
  show Ideal.sqrt (Ideal.ofBits .f32 0x3F800000#32) = Ideal.ofBits .f32 0x3F800000#32
  exact sqrt_one_word

/-- Core `c`'s buffers after the first three stretches of the kernel's host operations. -/
def lowVal (c : Dev nD) : Valuation τ sig (Elt Ideal) :=
  after hostOps0_2 (after hostOps0_1 (after hostOps0 (fun b => m (c, b))))

/-- There the head embedding, scaled by tanh of its clamped norm over that norm and shifted by the centre, is the
    reference's: the reference's scale constant is the square root of one. -/
theorem low_x (c : Dev nD) :
    lowVal m c (Proc.devRef .tc main_v54) = Cert.ReferenceIdeal.Read.val_main_v50 (F := Ideal) (m ((c : Thread nD τ).loc main_arg0))
      (m ((c : Thread nD τ).loc main_arg1)) (m ((c : Thread nD τ).loc main_arg3)) (m ((c : Thread nD τ).loc main_arg5)) := by
  unfold lowVal
  simp only [hostOps0, hostOps0_1, hostOps0_2]
  after_results_simp
  simp only [Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_v50, ref_sqrt_one]
  rfl

/-- The rotation row, recast to pairs of lanes. -/
theorem low_g (c : Dev nD) :
    lowVal m c (Proc.devRef .tc main_v55) = Cert.ReferenceIdeal.Read.val_main_v51 (F := Ideal) (m ((c : Thread nD τ).loc main_arg1))
      (m ((c : Thread nD τ).loc main_arg4)) := by
  unfold lowVal
  simp only [hostOps0, hostOps0_1, hostOps0_2]
  after_results_simp
  rfl

/-- The centre row. -/
theorem low_centre (c : Dev nD) :
    lowVal m c (Proc.devRef .tc main_v27) = Cert.ReferenceIdeal.Read.val_main_v34 (F := Ideal) (m ((c : Thread nD τ).loc main_arg1))
      (m ((c : Thread nD τ).loc main_arg5)) := by
  unfold lowVal
  simp only [hostOps0, hostOps0_1, hostOps0_2]
  after_results_simp
  rfl

/-- The translation row. -/
theorem low_trans (c : Dev nD) :
    lowVal m c (Proc.devRef .tc main_v20) = Cert.ReferenceIdeal.Read.val_main_v27 (F := Ideal) (m ((c : Thread nD τ).loc main_arg1))
      (m ((c : Thread nD τ).loc main_arg6)) := by
  unfold lowVal
  simp only [hostOps0, hostOps0_1, hostOps0_2]
  after_results_simp
  rfl

end Cert.RotDist

end
-- ==== Proof.HostUpper.lean ====
/-
  The rotation and the two shifts, from any buffer contents that hold their four inputs.

  The last two stretches of the kernel's host operations normalise each consecutive pair of lanes of the rotation row
  (dividing by the pair's norm clamped below by 1e-15), rotate the pairs of `x` by them
  (`(g₀x₀ - g₁x₁, g₀x₁ + g₁x₀)`), lay the rotated pairs back out as 512 lanes, subtract the centre, add the
  translation, and recast the [128, 512] result to [128, 1, 512].  These are the reference's operations from its
  own `x`, rotation pairs, centre and translation.  So from ANY contents whose four buffers hold the reference's
  four stages, the recast head rows are the reference's transformed head rows, recast.  Stated over arbitrary
  contents so that the earlier part of the program is never opened here.
-/
import proofs.«119861_j781684048762_1_alg».proof.Proof.Gen.KernelIdeal.Frame
import proofs.«119861_j781684048762_1_alg».proof.Proof.Gen.ReferenceIdeal.Read
import proofs.«119861_j781684048762_1_alg».proof.Proof.Spec
import Idealize.ShloMosaic.Lib.StableHlo.Run
import Idealize.ShloMosaic.Lib.Pipeline.Value
import Idealize.ShloMosaic.Lib.ValueIdx

noncomputable section

namespace Cert.RotDist

open Idealize.ShloMosaic Idealize.ShloMosaic.ValueIdx Idealize.ShloMosaic.TcCoe Idealize.SL.Sem Idealize.ShloMosaic.StableHlo
open Cert.KernelIdeal Cert.KernelIdeal.Gen

/-- Two [128, 256, 1] arrays laid side by side on the last axis: the rotated pairs. -/
def pairUp (a b : (⟨S128x256x1, .f32⟩ : BufTy).Contents (Elt Ideal)) : (⟨S128x256x2, .f32⟩ : BufTy).Contents (Elt Ideal) :=
  concatenate S128x256x2 2 [⟨S128x256x1, a⟩, ⟨S128x256x1, b⟩] concatenates_S128x256x1_S128x256x1_S128x256x2_d2

/-- The host operation that joins the rotated pairs is `pairUp`. -/
theorem pairUp_fold :
    ((fun a b => concatenate S128x256x2 2 [⟨S128x256x1, a⟩, ⟨S128x256x1, b⟩] concatenates_S128x256x1_S128x256x1_S128x256x2_d2) :
      (⟨S128x256x1, .f32⟩ : BufTy).Contents (Elt Ideal) → (⟨S128x256x1, .f32⟩ : BufTy).Contents (Elt Ideal) → (⟨S128x256x2, .f32⟩ : BufTy).Contents (Elt Ideal))
      = pairUp := rfl

/-- From contents `W` holding the reference's `x`, rotation pairs, centre and translation, the last two stretches
    leave the reference's transformed head rows, recast to [128, 1, 512]. -/
theorem up_head (W : Valuation τ sig (Elt Ideal))
    (x0 x1 : (⟨S128, .i32⟩ : BufTy).Contents (Elt Ideal)) (x3 : (⟨S100000x512, .f32⟩ : BufTy).Contents (Elt Ideal))
    (x4 x5 x6 : (⟨S500x512, .f32⟩ : BufTy).Contents (Elt Ideal))
    (hx : W (Proc.devRef .tc main_v54) = Cert.ReferenceIdeal.Read.val_main_v50 (F := Ideal) x0 x1 x3 x5)
    (hg : W (Proc.devRef .tc main_v55) = Cert.ReferenceIdeal.Read.val_main_v51 (F := Ideal) x1 x4)
    (hc : W (Proc.devRef .tc main_v27) = Cert.ReferenceIdeal.Read.val_main_v34 (F := Ideal) x1 x5)
    (ht : W (Proc.devRef .tc main_v20) = Cert.ReferenceIdeal.Read.val_main_v27 (F := Ideal) x1 x6) :
    after hostOps0_4 (after hostOps0_3 W) (Proc.devRef .tc main_v97)
      = shapeCast S128x1x512 (Cert.ReferenceIdeal.Read.val_main_v85 (F := Ideal) x0 x1 x3 x4 x5 x6) shapeCasts_S128x512_S128x1x512 := by
  simp only [hostOps0_3, hostOps0_4, pairUp_fold]
  after_results_simp
  rw [hx, hg, hc, ht]
  simp only [Cert.ReferenceIdeal.Read.val_main_v85, Cert.ReferenceIdeal.Read.val_main_v84, Cert.ReferenceIdeal.Read.val_main_v83, Cert.ReferenceIdeal.Read.val_main_v82, Cert.ReferenceIdeal.Read.val_main_v81, Cert.ReferenceIdeal.Read.val_main_v80, Cert.ReferenceIdeal.Read.val_main_v79, Cert.ReferenceIdeal.Read.val_main_v78, Cert.ReferenceIdeal.Read.val_main_v77, Cert.ReferenceIdeal.Read.val_main_v76, Cert.ReferenceIdeal.Read.val_main_v75, Cert.ReferenceIdeal.Read.val_main_v74, Cert.ReferenceIdeal.Read.val_main_v73, Cert.ReferenceIdeal.Read.val_main_v72, Cert.ReferenceIdeal.Read.val_main_v71, Cert.ReferenceIdeal.Read.val_main_v70, Cert.ReferenceIdeal.Read.val_main_v69, Cert.ReferenceIdeal.Read.val_main_v68, Cert.ReferenceIdeal.Read.val_main_v67, Cert.ReferenceIdeal.Read.val_main_v66, Cert.ReferenceIdeal.Read.val_main_v65, Cert.ReferenceIdeal.Read.val_main_v64, Cert.ReferenceIdeal.Read.val_main_v63, Cert.ReferenceIdeal.Read.val_main_v62, Cert.ReferenceIdeal.Read.val_main_v61, Cert.ReferenceIdeal.Read.val_main_v60, Cert.ReferenceIdeal.Read.val_main_v59, Cert.ReferenceIdeal.Read.val_main_v58, Cert.ReferenceIdeal.Read.val_main_v57, Cert.ReferenceIdeal.Read.val_main_v56, Cert.ReferenceIdeal.Read.val_main_v55, Cert.ReferenceIdeal.Read.val_main_v54, Cert.ReferenceIdeal.Read.val_main_v53, Cert.ReferenceIdeal.Read.val_main_v52, Cert.ReferenceIdeal.Read.val_main_cst_10, Cert.ReferenceIdeal.Read.val_main_call1_v2, Cert.ReferenceIdeal.Read.val_main_call1_v1, Cert.ReferenceIdeal.Read.val_main_call1_v0, Cert.ReferenceIdeal.Read.val_main_call1_cst]
  rfl

end Cert.RotDist

end
-- ==== Proof.HostArrays.lean ====
/-
  The four arrays the kernel's region is launched on are four of the reference's intermediate arrays.

  Both programs gather the same rows (the head entity's embedding and bias, the relation's three rows, the candidates'
  embeddings and biases, each index wrapped once if negative) and put the head embedding through the same transform.
  The tail embeddings and the two biases are read off the whole host prefix directly: they are short chains of the
  same operations.  The head rows go through the two halves of the transform (Proof/HostLower.lean up to the
  pre-rotation value, Proof/HostUpper.lean from there), joined here: running a list of host operations made of two
  parts is running the second part from where the first part ends.  The region's operands are these arrays with the head
  rows recast to [128, 1, 512] and the head bias to [128, 1]; `kernel_score_eq` reads the recasts at an entry and
  concludes that the kernel's score of its arrays is the reference's score of its stages.
-/
import proofs.«119861_j781684048762_1_alg».proof.Proof.Gen.KernelIdeal.Frame
import proofs.«119861_j781684048762_1_alg».proof.Proof.Gen.ReferenceIdeal.Read
import proofs.«119861_j781684048762_1_alg».proof.Proof.Spec
import proofs.«119861_j781684048762_1_alg».proof.Proof.HostLower
import proofs.«119861_j781684048762_1_alg».proof.Proof.HostUpper
import Idealize.ShloMosaic.Lib.StableHlo.Run
import Idealize.ShloMosaic.Lib.Pipeline.Value
import Idealize.ShloMosaic.Lib.ValueIdx

noncomputable section

namespace Cert.RotDist

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- Running two lists of host operations one after the other is running their concatenation. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih (op.result W)

/-- What the region finds is what the last two stretches leave from the contents after the first three. -/
theorem V_split (c : Dev nD) (b : Ref sig .tc) :
    V m c b = after hostOps0_4 (after hostOps0_3 (lowVal m c)) (Proc.devRef .tc b) := by
  unfold lowVal
  dsimp only [V]
  simp only [List.flatten_cons, List.flatten_nil, List.append_nil, after_append]

/-- The head rows the region is launched on are the reference's transformed head rows, recast to [128, 1, 512]. -/
theorem head_array (c : Dev nD) :
    V m c main_v97 = shapeCast S128x1x512 (Cert.ReferenceIdeal.Read.val_main_v85 (F := Ideal) (m ((c : Thread nD τ).loc main_arg0)) (m ((c : Thread nD τ).loc main_arg1))
        (m ((c : Thread nD τ).loc main_arg3)) (m ((c : Thread nD τ).loc main_arg4)) (m ((c : Thread nD τ).loc main_arg5)) (m ((c : Thread nD τ).loc main_arg6)))
      shapeCasts_S128x512_S128x1x512 :=
  (V_split m c main_v97).trans
    (up_head (lowVal m c) _ _ _ _ _ _ (low_x m c) (low_g m c) (low_centre m c) (low_trans m c))

/-- The tail embeddings the region is launched on are the reference's gathered tails. -/
theorem tail_array (c : Dev nD) :
    V m c main_v96 = Cert.ReferenceIdeal.Read.val_main_v13 (F := Ideal) (m ((c : Thread nD τ).loc main_arg2)) (m ((c : Thread nD τ).loc main_arg3)) := by
  dsimp only [V]
  simp only [hostOps0, hostOps0_1, hostOps0_2, hostOps0_3, hostOps0_4, List.flatten_cons, List.flatten_nil, List.append_nil,
    List.cons_append, List.nil_append]
  after_results_simp
  rfl

/-- The tail biases the region is launched on are the reference's gathered tail biases. -/
theorem tailbias_array (c : Dev nD) :
    V m c main_v41 = Cert.ReferenceIdeal.Read.val_main_v112 (F := Ideal) (m ((c : Thread nD τ).loc main_arg2)) (m ((c : Thread nD τ).loc main_arg8)) := by
  dsimp only [V]
  simp only [hostOps0, hostOps0_1, hostOps0_2, hostOps0_3, hostOps0_4, List.flatten_cons, List.flatten_nil, List.append_nil,
    List.cons_append, List.nil_append]
  after_results_simp
  rfl

/-- The head biases the region is launched on are the reference's gathered head biases, as a column. -/
theorem headbias_array (c : Dev nD) :
    V m c main_v98 = shapeCast S128x1 (Cert.ReferenceIdeal.Read.val_main_v102 (F := Ideal) (m ((c : Thread nD τ).loc main_arg0)) (m ((c : Thread nD τ).loc main_arg7)))
      shapeCasts_S128_S128x1 := by
  dsimp only [V]
  simp only [hostOps0, hostOps0_1, hostOps0_2, hostOps0_3, hostOps0_4, List.flatten_cons, List.flatten_nil, List.append_nil,
    List.cons_append, List.nil_append]
  after_results_simp
  rfl

/-- The kernel's score of the arrays its region finds is the reference's score of its own stages, all read off the
    same nine arguments. -/
theorem kernel_score_eq (c : Dev nD) :
    kscore (V m c main_v97) (V m c main_v96) (V m c main_v98) (V m c main_v41)
      = score
          (Cert.ReferenceIdeal.Read.val_main_v85 (F := Ideal) (m ((c : Thread nD τ).loc main_arg0)) (m ((c : Thread nD τ).loc main_arg1))
            (m ((c : Thread nD τ).loc main_arg3)) (m ((c : Thread nD τ).loc main_arg4)) (m ((c : Thread nD τ).loc main_arg5)) (m ((c : Thread nD τ).loc main_arg6)))
          (Cert.ReferenceIdeal.Read.val_main_v13 (F := Ideal) (m ((c : Thread nD τ).loc main_arg2)) (m ((c : Thread nD τ).loc main_arg3)))
          (Cert.ReferenceIdeal.Read.val_main_v102 (F := Ideal) (m ((c : Thread nD τ).loc main_arg0)) (m ((c : Thread nD τ).loc main_arg7)))
          (Cert.ReferenceIdeal.Read.val_main_v112 (F := Ideal) (m ((c : Thread nD τ).loc main_arg2)) (m ((c : Thread nD τ).loc main_arg8))) := by
  refine kscore_eq_score _ _ _ _ _ _ _ _ (fun b k => ?_) (tail_array m c) (fun b => ?_) (tailbias_array m c)
  · rw [head_array m c]
    refine shapeCast_apply _ _ (ix3 b (0 : Fin 1) k) (ix2 b k) ?_
    rw [Shape.rowMajor_val_two, Shape.rowMajor_val_three]
    show b.val * 512 + k.val = (b.val * 1 + 0) * 512 + k.val
    omega
  · rw [headbias_array m c]
    refine shapeCast_apply _ _ (ix2 b (0 : Fin 1)) (ix1 b) ?_
    rw [Shape.rowMajor_val_one, Shape.rowMajor_val_two]
    show b.val = b.val * 1 + 0
    omega

end Cert.RotDist

end
-- ==== Proof.lean ====
/-
  The certificate: a knowledge-graph scoring kernel against its array-language reference, equal at the ideal values.

  Both programs score 1024 candidate tails against each of 128 (head, relation) pairs.  The head entity's embedding is
  mapped by the exponential map at the origin (scaled by tanh of its norm over its norm), shifted by the relation's
  centre, rotated pairwise by the relation's normalised rotation row, shifted back and translated; the score of a
  candidate is nine minus the Euclidean norm of (head - tail + ε) over the 512 lanes, plus the head's and the tail's
  biases.

  The kernel's program does the gathers and the head transform in host operations and the distance in a tiled region;
  the reference does everything in host operations.  The proof has three parts.  Proof/KernelValue.lean: the region's
  output array is the score (Proof/Spec.lean) of the four arrays it is launched on — each grid point writes its block
  of that score (Proof/KernelBlock.lean reads one block entry), and the blocks cover the output.  Proof/RefRead.lean:
  the reference's result is the same score of four of its own intermediate arrays.  Proof/HostArrays.lean: the four
  arrays are the same on both sides — the same operations on the same arguments, the one difference being the
  reference's square root of the constant one, which is one.  No law that needs finiteness is used: the sums are the
  same terms in the same order and every other step is the same operation on equal operands, so the precondition is
  never opened.

  The three frames are the generated ones (the reference's is its generated run with the result dropped), and the
  idealisation rewrote nothing, so its conjunct is trivial.
-/
import proofs.«119861_j781684048762_1_alg».proof.Defs
import proofs.«119861_j781684048762_1_alg».proof.Proof.Gen.Kernel
import proofs.«119861_j781684048762_1_alg».proof.Proof.Gen.Kernel.Frame
import proofs.«119861_j781684048762_1_alg».proof.Proof.Gen.KernelIdeal
import proofs.«119861_j781684048762_1_alg».proof.Proof.Gen.KernelIdeal.Frame
import proofs.«119861_j781684048762_1_alg».proof.Proof.Gen.KernelIdeal.Value
import proofs.«119861_j781684048762_1_alg».proof.Proof.Gen.ReferenceIdeal
import proofs.«119861_j781684048762_1_alg».proof.Proof.Gen.ReferenceIdeal.Run
import proofs.«119861_j781684048762_1_alg».proof.Proof.Gen.ReferenceIdeal.Read
import proofs.«119861_j781684048762_1_alg».proof.Proof.Gen.Pre_finite_inputs
import proofs.«119861_j781684048762_1_alg».proof.Proof.KernelValue
import proofs.«119861_j781684048762_1_alg».proof.Proof.RefRead
import proofs.«119861_j781684048762_1_alg».proof.Proof.HostArrays
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the nine arguments both programs end with the same score array: the kernel's output
    is the score of the arrays its region finds, those are the reference's own intermediate arrays of the same
    arguments, and the reference's result is the score of them. -/
theorem algebraic : Cert.algebraic_KernelIdeal_ReferenceIdeal := by
  intro m ρ m' ρ' _ hagree
  refine ⟨fun c => Cert.RotDist.kscore (Cert.KernelIdeal.Gen.V m c Cert.KernelIdeal.main_v97)
      (Cert.KernelIdeal.Gen.V m c Cert.KernelIdeal.main_v96) (Cert.KernelIdeal.Gen.V m c Cert.KernelIdeal.main_v98)
      (Cert.KernelIdeal.Gen.V m c Cert.KernelIdeal.main_v41), Cert.RotDist.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v113_eq, Cert.RotDist.reference_score, h0, h1, h2, h3, h4, h5, h6, h7, h8]
  exact (Cert.RotDist.kernel_score_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
